-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S800000x64 : S_.BroadcastsInDim S800000x64 (![] : Fin 0 → Fin S800000x64.rank)
  reducesTo_S800000x64_S_d0_1 : S800000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S800000x64 .f32) (main_arg1 : IVec S800000 32) (main_arg2 : IVec S800000 32) (main_arg3 : FVec F S64x64 .f32) (main_arg4 : FVec F S64 .f32) (main_arg5 : FVec F S64x64 .f32) (main_arg6 : FVec F S64 .f32) : IVec S_ 1 :=
  let main_v0 : FVec F S800000x64 .f32 := Host.absf main_arg0
  let main_cst : FVec F S_ .f32 := constant S_ .f32 0x7F800000#32
  let main_v1 : FVec F S800000x64 .f32 := broadcastInDim S800000x64 ![] bcast_S_S800000x64 main_cst
  let main_v2 : IVec S800000x64 1 := cmpf .olt main_v0 main_v1
  let main_c : IVec S_ 1 := constantI S_ 1 1#1
  let main_v3 : IVec S_ 1 := (fun x v => Host.reduce IntOp.andi x v reducesTo_S800000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000x64 : Shape := ⟨2, ![50000, 64]⟩
abbrev S800000x1 : Shape := ⟨2, ![800000, 1]⟩
abbrev S400000x128 : Shape := ⟨2, ![400000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S8000x128 : Shape := ⟨2, ![8000, 128]⟩

abbrev nBuf : Space → Nat
  | .hbm => 50
  | .vmem => 8
  | .smem => 0
  | _ => 0

abbrev bufTy : (tb : Table) → Fin (tcTables nBuf tb) → BufTy
  | .hbm, ⟨0, _⟩ => ⟨S800000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S50000x64, .f32⟩
  | .hbm, ⟨9, _⟩ => ⟨S800000x1, .i32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x64, .f32⟩
  | .hbm, ⟨30, _⟩ => ⟨S400000x128, .f32⟩
  | .hbm, ⟨31, _⟩ => ⟨S400000x128, .bf16⟩
  | .hbm, ⟨32, _⟩ => ⟨S_, .f32⟩
  | .hbm, ⟨33, _⟩ => ⟨S64x64, .f32⟩
  | .hbm, ⟨34, _⟩ => ⟨S64x128, .f32⟩
  | .hbm, ⟨35, _⟩ => ⟨S64x128, .f32⟩
  | .hbm, ⟨36, _⟩ => ⟨S128x128, .f32⟩
  | .hbm, ⟨37, _⟩ => ⟨S128x128, .bf16⟩
  | .hbm, ⟨38, _⟩ => ⟨S_, .f32⟩
  | .hbm, ⟨39, _⟩ => ⟨S64x64, .f32⟩
  | .hbm, ⟨40, _⟩ => ⟨S64x128, .f32⟩
  | .hbm, ⟨41, _⟩ => ⟨S64x128, .f32⟩
  | .hbm, ⟨42, _⟩ => ⟨S128x128, .f32⟩
  | .hbm, ⟨43, _⟩ => ⟨S128x128, .bf16⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S400000x128, .f32⟩
  | .hbm, ⟨49, _⟩ => ⟨S800000x64, .f32⟩
  | .local _ .vmem, ⟨0, _⟩ => ⟨S8000x128, .bf16⟩
  | .local _ .vmem, ⟨1, _⟩ => ⟨S8000x128, .bf16⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | _, _ => ⟨S800000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S800000x64_S400000x128 : S800000x64.ShapeCasts S400000x128
  bitsLt_bf16_f32 : FTy.bits .bf16 < FTy.bits .f32
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S400000x128_S800000x64 : S400000x128.ShapeCasts S800000x64
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .bf16 = 32 ∨ (Rect.block (s := S400000x128) S8000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S400000x128.size a
  hwx0_5 : ∀ i : grid0.Coords, EltTy.bits .f32 = 32 ∨ (Rect.block (s := S400000x128) S8000x128.size (cc0_transform_5 i) (hinb0_5 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_v19) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S800000x64 : Shape := ⟨2, ![800000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000x64 : Shape := ⟨2, ![50000, 64]⟩
abbrev S800000x1 : Shape := ⟨2, ![800000, 1]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S800000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S50000x64, .f32⟩
  | .hbm, ⟨9, _⟩ => ⟨S800000x1, .i32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x64, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S800000x64, .f32⟩
  | .hbm, ⟨43, _⟩ => ⟨S800000x64, .f32⟩
  | _, _ => ⟨S800000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf

class Facts : Prop extends Facts₀ where

variable [Facts]
-- ==== Proof.Spec.lean ====
/-
  The mathematics of the certificate, with no program in sight.

  A two-layer per-edge map on rows of 64 numbers,
      y(e, c) = h · ( Σ_k max( Σ_j x(e, j) · W1(j, k) + b1(k), z ) · W2(k, c) + b2(c) ),
  is computed by the kernel on PACKED rows: two consecutive rows of x side by side in one row of 128
  lanes, against the block-diagonal 128 × 128 matrices diag(W, W) and the doubled biases (b, b).
  Lane 64·q + j of packed row r is x(2r + q, j).  A contraction of a packed row with diag(W, W) at
  column 64·p + c keeps only the 64 terms of block p, because every other term is a product with the
  zero entry of the matrix and x · 0 = 0 for EVERY extended real x (no finiteness is used anywhere):
  that is `sum_blockdiag`.  Applying it to both layers gives `packed_eq_mlp`: the packed computation
  at (r, 64·q + c) is the per-edge map at (2r + q, c).
-/
import Mathlib
import Idealize.ShloMosaic.Lib.ValueIdx

noncomputable section

namespace Cert.EdgeMlp

open Idealize.ShloMosaic Idealize.ShloMosaic.ValueIdx

/-- Lane `64·q + j` of a packed row of 128: half `q`, position `j` inside the half. -/
def lane (q : Fin 2) (j : Fin 64) : Fin 128 := ⟨64 * q.val + j.val, by have := q.isLt; have := j.isLt; omega⟩

@[simp] theorem lane_val (q : Fin 2) (j : Fin 64) : (lane q j).val = 64 * q.val + j.val := rfl

/-- Row `2r + q` of the unpacked array: the row that half `q` of packed row `r` holds. -/
def row (r : Fin 400000) (q : Fin 2) : Fin 800000 := ⟨2 * r.val + q.val, by have := q.isLt; have := r.isLt; omega⟩

@[simp] theorem row_val (r : Fin 400000) (q : Fin 2) : (row r q).val = 2 * r.val + q.val := rfl

/-- A sum over the 128 lanes is the sum over the first half plus the sum over the second half. -/
theorem sum_lanes (g : Fin 128 → EReal) :
    ∑ j' : Fin 128, g j' = ∑ j : Fin 64, g (lane 0 j) + ∑ j : Fin 64, g (lane 1 j) := by
  have h := Fin.sum_univ_add (a := 64) (b := 64) g
  have e0 : ∀ j : Fin 64, Fin.castAdd 64 j = lane 0 j := fun j => Fin.ext (by simp [lane])
  have e1 : ∀ j : Fin 64, Fin.natAdd 64 j = lane 1 j := fun j => Fin.ext (by simp [lane]; omega)
  simp only [e0, e1] at h
  exact h

/-- The contraction of 128 lanes with a column of a block-diagonal matrix: if the column `w` is `w0` on
    the lanes of half `p` and zero on the other half, only half `p`'s 64 terms remain.  The other terms
    are `f · 0 = 0` whatever extended real `f` is. -/
theorem sum_blockdiag (p : Fin 2) (f w : Fin 128 → EReal) (w0 : Fin 64 → EReal)
    (hd : ∀ j : Fin 64, w (lane p j) = w0 j)
    (ho : ∀ (q : Fin 2) (j : Fin 64), q ≠ p → w (lane q j) = 0) :
    ∑ j' : Fin 128, f j' * w j' = ∑ j : Fin 64, f (lane p j) * w0 j := by
  rw [sum_lanes]
  have hp : p = 0 ∨ p = 1 := by
    rcases p with ⟨v, hv⟩
    interval_cases v
    · exact Or.inl rfl
    · exact Or.inr rfl
  rcases hp with rfl | rfl
  · have h1 : ∑ j : Fin 64, f (lane 1 j) * w (lane 1 j) = 0 :=
      Finset.sum_eq_zero fun j _ => by rw [ho 1 j (by decide), mul_zero]
    rw [h1, add_zero]
    exact Finset.sum_congr rfl fun j _ => by rw [hd j]
  · have h0 : ∑ j : Fin 64, f (lane 0 j) * w (lane 0 j) = 0 :=
      Finset.sum_eq_zero fun j _ => by rw [ho 0 j (by decide), mul_zero]
    rw [h0, zero_add]
    exact Finset.sum_congr rfl fun j _ => by rw [hd j]

/-- The per-edge map at row `e`, column `c`: the scale `h` times the second layer of the rectified first
    layer (`z` is the rectifier's floor; the programs pass the number their zero word denotes). -/
def mlpAt (h z : EReal) (x : (⟨2, ![800000, 64]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (e : Fin 800000) (c : Fin 64) : EReal :=
  h * ((∑ k : Fin 64, max ((∑ j : Fin 64, x (ix2 e j) * W1 (ix2 j k)) + b1 (ix1 k)) z * W2 (ix2 k c)) + b2 (ix1 c))

/-- The same computation on packed rows of 128 lanes against 128 × 128 matrices and [1, 128] biases. -/
def packedAt (h z : EReal) (X : (⟨2, ![400000, 128]⟩ : Shape).Idx → EReal)
    (A1 : (⟨2, ![128, 128]⟩ : Shape).Idx → EReal) (c1 : (⟨2, ![1, 128]⟩ : Shape).Idx → EReal)
    (A2 : (⟨2, ![128, 128]⟩ : Shape).Idx → EReal) (c2 : (⟨2, ![1, 128]⟩ : Shape).Idx → EReal)
    (r : Fin 400000) (c' : Fin 128) : EReal :=
  h * ((∑ k' : Fin 128, max ((∑ j' : Fin 128, X (ix2 r j') * A1 (ix2 j' k')) + c1 (ix2 (0 : Fin 1) k')) z * A2 (ix2 k' c'))
    + c2 (ix2 (0 : Fin 1) c'))

/-- Packed and unpacked agree: when the packed array holds two rows side by side, the matrices are
    block diagonal with both blocks the 64 × 64 matrix, and the biases are doubled, the packed
    computation at packed row `r`, lane `64·q + c`, is the per-edge map at row `2r + q`, column `c`. -/
theorem packed_eq_mlp (h z : EReal) (x : (⟨2, ![800000, 64]⟩ : Shape).Idx → EReal)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (X : (⟨2, ![400000, 128]⟩ : Shape).Idx → EReal)
    (A1 : (⟨2, ![128, 128]⟩ : Shape).Idx → EReal) (c1 : (⟨2, ![1, 128]⟩ : Shape).Idx → EReal)
    (A2 : (⟨2, ![128, 128]⟩ : Shape).Idx → EReal) (c2 : (⟨2, ![1, 128]⟩ : Shape).Idx → EReal)
    (hX : ∀ (r : Fin 400000) (q : Fin 2) (j : Fin 64), X (ix2 r (lane q j)) = x (ix2 (row r q) j))
    (hA1d : ∀ (p : Fin 2) (j k : Fin 64), A1 (ix2 (lane p j) (lane p k)) = W1 (ix2 j k))
    (hA1o : ∀ (q p : Fin 2) (j k : Fin 64), q ≠ p → A1 (ix2 (lane q j) (lane p k)) = 0)
    (hA2d : ∀ (p : Fin 2) (j k : Fin 64), A2 (ix2 (lane p j) (lane p k)) = W2 (ix2 j k))
    (hA2o : ∀ (q p : Fin 2) (j k : Fin 64), q ≠ p → A2 (ix2 (lane q j) (lane p k)) = 0)
    (hc1 : ∀ (p : Fin 2) (k : Fin 64), c1 (ix2 (0 : Fin 1) (lane p k)) = b1 (ix1 k))
    (hc2 : ∀ (p : Fin 2) (k : Fin 64), c2 (ix2 (0 : Fin 1) (lane p k)) = b2 (ix1 k))
    (r : Fin 400000) (q : Fin 2) (c : Fin 64) :
    packedAt h z X A1 c1 A2 c2 r (lane q c) = mlpAt h z x W1 b1 W2 b2 (row r q) c := by
  unfold packedAt mlpAt
  rw [hc2 q c]
  rw [sum_blockdiag q (fun k' => max ((∑ j' : Fin 128, X (ix2 r j') * A1 (ix2 j' k')) + c1 (ix2 (0 : Fin 1) k')) z)
    (fun k' => A2 (ix2 k' (lane q c))) (fun k => W2 (ix2 k c)) (fun k => hA2d q k c) (fun p k hp => hA2o p q k c hp)]
  refine congrArg (fun s => h * (s + b2 (ix1 c))) (Finset.sum_congr rfl fun k _ => ?_)
  try dsimp only
  rw [hc1 q k]
  rw [sum_blockdiag q (fun j' => X (ix2 r j')) (fun j' => A1 (ix2 j' (lane q k))) (fun j => W1 (ix2 j k))
    (fun j => hA1d q j k) (fun p j hp => hA1o p q j k hp)]
  refine congrArg (fun s => max (s + b1 (ix1 k)) z * W2 (ix2 k c)) (Finset.sum_congr rfl fun j _ => ?_)
  try dsimp only
  rw [hX r q j]

end Cert.EdgeMlp

end
-- ==== Proof.HostIn.lean ====
/-
  What the region finds in its five input arrays, and each of them read at one element.

  Before the kernel runs, the host adds the node sums gathered at the two endpoints of every edge (the
  per-edge input rows, `edgeInput`), lays two consecutive rows side by side (`packRows`: a reshape of
  [800000, 64] to [400000, 128], so lane 64·q + j of packed row r is entry j of row 2r + q), builds from
  each 64 × 64 matrix W the 128 × 128 matrix with W in both diagonal blocks and the zero word elsewhere
  (`blockDiag`: two concatenations along the columns, one along the rows), and doubles each bias
  (`doubled`: b followed by b, as one row of 128).  Rounding to a shorter float format is the identity
  on extended reals.
-/
import proofs.«148600_j83013127897105_2_alg».proof.Proof.Gen.KernelIdeal.Frame
import proofs.«148600_j83013127897105_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.EdgeMlp

/-! ## The host's terms -/

/-- The per-edge input rows: the segment sums of the edge features over the destination nodes, gathered at
    each edge's source and at its destination, added.  (The index words are wrapped once if negative, as
    the host does.)  Never opened: both programs compute it by the same operations. -/
def edgeInput (x0 : (⟨S800000x64, .f32⟩ : BufTy).Contents (Elt Ideal)) (x1 x2 : (⟨S800000, .i32⟩ : BufTy).Contents (Elt Ideal)) :
    (⟨S800000x64, .f32⟩ : BufTy).Contents (Elt Ideal) :=
  addf
    (Host.gather gather_S50000x64_S800000x1_S800000x64_1_0_n_n_0_1_164
      (Host.scatterAdd (F := Ideal) scatter_S50000x64_S800000x1_S800000x64_1_0_0_1
        (broadcastInDim S50000x64 ![] bcast_S_S50000x64 (constant (F := Ideal) S_ .f32 0x00000000#32))
        (broadcastInDim S800000x1 ![0] bcast_S800000_S800000x1_0 x2) x0)
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))
    (Host.gather gather_S50000x64_S800000x1_S800000x64_1_0_n_n_0_1_164
      (Host.scatterAdd (F := Ideal) scatter_S50000x64_S800000x1_S800000x64_1_0_0_1
        (broadcastInDim S50000x64 ![] bcast_S_S50000x64 (constant (F := Ideal) S_ .f32 0x00000000#32))
        (broadcastInDim S800000x1 ![0] bcast_S800000_S800000x1_0 x2) x0)
      (broadcastInDim S800000x1 ![0] bcast_S800000_S800000x1_0
        (select (cmpi .slt x2 (broadcastInDim S800000 ![] bcast_S_S800000 (constantI S_ 32 0#32)))
          (addi x2 (broadcastInDim S800000 ![] bcast_S_S800000 (constantI S_ 32 50000#32))) x2)))

/-- Two consecutive rows of 64 side by side in one row of 128. -/
def packRows (x : S800000x64.Idx → EReal) : S400000x128.Idx → EReal :=
  shapeCast S400000x128 x shapeCasts_S800000x64_S400000x128

/-- The 64 × 64 array of the zero word. -/
def zeros64 : S64x64.Idx → EReal :=
  broadcastInDim S64x64 ![] bcast_S_S64x64 (constant (F := Ideal) S_ .f32 0x00000000#32)

/-- `W` in both diagonal blocks of a 128 × 128 matrix, the zero word in the other two. -/
def blockDiag (W : S64x64.Idx → EReal) : S128x128.Idx → EReal :=
  concatenate S128x128 0
    [⟨S64x128, concatenate S64x128 1 [⟨S64x64, W⟩, ⟨S64x64, zeros64⟩] concatenates_S64x64_S64x64_S64x128_d1⟩,
     ⟨S64x128, concatenate S64x128 1 [⟨S64x64, zeros64⟩, ⟨S64x64, W⟩] concatenates_S64x64_S64x64_S64x128_d1⟩]
    concatenates_S64x128_S64x128_S128x128_d0

/-- `b` followed by `b`, as one row of 128. -/
def doubled (b : S64.Idx → EReal) : S1x128.Idx → EReal :=
  shapeCast S1x128 (concatenate S128 0 [⟨S64, b⟩, ⟨S64, b⟩] concatenates_S64_S64_S128_d0) shapeCasts_S128_S1x128

/-! ## The arrays as the region finds them -/

variable (m : (ℓ : Loc nD τ sig) → Buf (Elt Ideal) ℓ)

set_option maxHeartbeats 4000000 in
/-- Window 0's array: the packed per-edge input rows. -/
theorem entry_rows (c : Dev nD) : (V m c main_v19 : S400000x128.Idx → EReal)
    = packRows (edgeInput (m ((c : Thread nD τ).loc main_arg0)) (m ((c : Thread nD τ).loc main_arg1)) (m ((c : Thread nD τ).loc main_arg2))) := by
  show StableHlo.after hostOps0 (fun b => m (c, b)) (Proc.devRef .tc main_v19) = _
  after_results_simp
  rfl

/-- Window 1's array: the first layer's matrix, block diagonal. -/
theorem entry_mat1 (c : Dev nD) : (V m c main_v24 : S128x128.Idx → EReal) = blockDiag (m ((c : Thread nD τ).loc main_arg3)) := by
  show StableHlo.after hostOps0 (fun b => m (c, b)) (Proc.devRef .tc main_v24) = _
  after_results
  rfl

/-- Window 3's array: the second layer's matrix, block diagonal. -/
theorem entry_mat2 (c : Dev nD) : (V m c main_v29 : S128x128.Idx → EReal) = blockDiag (m ((c : Thread nD τ).loc main_arg5)) := by
  show StableHlo.after hostOps0 (fun b => m (c, b)) (Proc.devRef .tc main_v29) = _
  after_results
  rfl

/-- Window 2's array: the first layer's bias, doubled. -/
theorem entry_bias1 (c : Dev nD) : (V m c main_v31 : S1x128.Idx → EReal) = doubled (m ((c : Thread nD τ).loc main_arg4)) := by
  show StableHlo.after hostOps0 (fun b => m (c, b)) (Proc.devRef .tc main_v31) = _
  after_results
  rfl

/-- Window 4's array: the second layer's bias, doubled. -/
theorem entry_bias2 (c : Dev nD) : (V m c main_v33 : S1x128.Idx → EReal) = doubled (m ((c : Thread nD τ).loc main_arg6)) := by
  show StableHlo.after hostOps0 (fun b => m (c, b)) (Proc.devRef .tc main_v33) = _
  after_results
  rfl

/-! ## Each read at one element -/

/-- Lane 64·q + j of packed row r is entry j of row 2r + q: both sit at position 128·r + 64·q + j. -/
theorem packRows_at (x : S800000x64.Idx → EReal) (r : Fin 400000) (q : Fin 2) (j : Fin 64) :
    packRows x (ix2 r (lane q j)) = x (ix2 (row r q) j) := by
  unfold packRows
  refine shapeCast_apply x _ _ _ ?_
  rw [Shape.rowMajor_val_two, Shape.rowMajor_val_two]
  show (2 * r.val + q.val) * 64 + j.val = r.val * 128 + (64 * q.val + j.val)
  omega

/-- The zero array holds the zero word, which denotes 0. -/
theorem zeros64_at (i : S64x64.Idx) : zeros64 i = 0 := by
  unfold zeros64
  rw [broadcastInDim_apply _ bcast_S_S64x64 _ i ix0 (fun a => a.elim0), constant_apply, Ideal.ofBits_zero_f32]

/-- Two 64-column pieces side by side, read in the left piece. -/
theorem cols_left (A B : S64x64.Idx → EReal) (j k : Fin 64) :
    concatenate S64x128 1 [⟨S64x64, A⟩, ⟨S64x64, B⟩] concatenates_S64x64_S64x64_S64x128_d1 (ix2 j (lane 0 k)) = A (ix2 j k) :=
  concatenate_pair_apply_left (1 : Fin S64x128.rank) A B _ _ rfl (ix2 j k) fun b => by
    match b with
    | ⟨0, _⟩ => rfl
    | ⟨1, _⟩ => show k.val = 64 * 0 + k.val; omega

/-- … and in the right piece. -/
theorem cols_right (A B : S64x64.Idx → EReal) (j k : Fin 64) :
    concatenate S64x128 1 [⟨S64x64, A⟩, ⟨S64x64, B⟩] concatenates_S64x64_S64x64_S64x128_d1 (ix2 j (lane 1 k)) = B (ix2 j k) :=
  concatenate_pair_apply_right (1 : Fin S64x128.rank) A B _ _ rfl rfl (ix2 j k) (fun b hb => by
    match b, hb with
    | ⟨0, _⟩, _ => rfl
    | ⟨1, _⟩, hb => exact absurd rfl hb) (by show k.val + 64 = 64 * 1 + k.val; omega)

/-- Two 64-row pieces one above the other, read in the upper piece. -/
theorem rows_upper (T B : S64x128.Idx → EReal) (j : Fin 64) (c' : Fin 128) :
    concatenate S128x128 0 [⟨S64x128, T⟩, ⟨S64x128, B⟩] concatenates_S64x128_S64x128_S128x128_d0 (ix2 (lane 0 j) c') = T (ix2 j c') :=
  concatenate_pair_apply_left (0 : Fin S128x128.rank) T B _ _ rfl (ix2 j c') fun b => by
    match b with
    | ⟨0, _⟩ => show j.val = 64 * 0 + j.val; omega
    | ⟨1, _⟩ => rfl

/-- … and in the lower piece. -/
theorem rows_lower (T B : S64x128.Idx → EReal) (j : Fin 64) (c' : Fin 128) :
    concatenate S128x128 0 [⟨S64x128, T⟩, ⟨S64x128, B⟩] concatenates_S64x128_S64x128_S128x128_d0 (ix2 (lane 1 j) c') = B (ix2 j c') :=
  concatenate_pair_apply_right (0 : Fin S128x128.rank) T B _ _ rfl rfl (ix2 j c') (fun b hb => by
    match b, hb with
    | ⟨0, _⟩, hb => exact absurd rfl hb
    | ⟨1, _⟩, _ => rfl) (by show j.val + 64 = 64 * 1 + j.val; omega)

/-- Any of the two halves is half 0 or half 1. -/
theorem half_cases (p : Fin 2) : p = 0 ∨ p = 1 := by
  rcases p with ⟨v, hv⟩
  interval_cases v
  · exact Or.inl rfl
  · exact Or.inr rfl

/-- A diagonal block of `blockDiag W` is `W`. -/
theorem blockDiag_diag (W : S64x64.Idx → EReal) (p : Fin 2) (j k : Fin 64) :
    blockDiag W (ix2 (lane p j) (lane p k)) = W (ix2 j k) := by
  unfold blockDiag
  rcases half_cases p with rfl | rfl
  · rw [rows_upper, cols_left]
  · rw [rows_lower, cols_right]

/-- An off-diagonal block of `blockDiag W` is zero. -/
theorem blockDiag_off (W : S64x64.Idx → EReal) (q p : Fin 2) (j k : Fin 64) (h : q ≠ p) :
    blockDiag W (ix2 (lane q j) (lane p k)) = 0 := by
  unfold blockDiag
  rcases half_cases q with rfl | rfl <;> rcases half_cases p with rfl | rfl
  · exact absurd rfl h
  · rw [rows_upper, cols_right, zeros64_at]
  · rw [rows_lower, cols_left, zeros64_at]
  · exact absurd rfl h

/-- Lane 64·p + k of the doubled bias is entry k of the bias. -/
theorem doubled_at (b : S64.Idx → EReal) (p : Fin 2) (k : Fin 64) :
    doubled b (ix2 (0 : Fin 1) (lane p k)) = b (ix1 k) := by
  unfold doubled
  rw [shapeCast_a_1a_apply]
  rcases half_cases p with rfl | rfl
  · exact concatenate_pair_apply_left (0 : Fin S128.rank) b b _ _ rfl (ix1 k) fun a => by
      match a with
      | ⟨0, _⟩ => show k.val = 64 * 0 + k.val; omega
  · exact concatenate_pair_apply_right (0 : Fin S128.rank) b b _ _ rfl rfl (ix1 k) (fun a ha => by
      match a, ha with
      | ⟨0, _⟩, ha => exact absurd rfl ha) (by show k.val + 64 = 64 * 1 + k.val; omega)

end Cert.KernelIdeal.Hand

end
-- ==== Proof.Payload.lean ====
/-
  The kernel body's arithmetic, read at one element.

  On a block of 8000 packed rows the body computes, for packed row r and lane c,
      h · ( Σ_k max( Σ_j x(r, j) · A1(j, k) + c1(0, k), z ) · A2(k, c) + c2(0, c) )
  with x the block of packed rows, A1, A2 the two 128 × 128 matrices and c1, c2 the two [1, 128] bias
  rows: two products into a zero accumulator (each a plain sum over the 128 contracted lanes), a row
  broadcast down the 8000 rows, a maximum against the splat of the zero word, and the scale by the word
  of one half.  A change of float format is the identity on extended reals, and a shape cast to the same
  shape is the identity.
-/
import proofs.«148600_j83013127897105_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- Row coordinate of the left operand of the body's product: the output's row. -/
theorem lhs_row (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- Its lane coordinate: the contracted index. -/
theorem lhs_lane (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- Row coordinate of the right operand: the contracted index. -/
theorem rhs_row (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- Its column coordinate: the output's lane. -/
theorem rhs_col (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The body's product into the zero accumulator, at row `r` and lane `c`: the sum over the 128 contracted
    lanes of the row's entry times the matrix's entry. -/
theorem product_at (l : FVec Ideal S8000x128 .bf16) (w : FVec Ideal S128x128 .bf16) (r : Fin 8000) (c : Fin 128) :
    matmul dot_S8000x128_S128x128_S8000x128_1_0_0_1_n_n none l w (constant S8000x128 .f32 0x00000000#32) (ix2 r c)
      = ∑ k : Fin 128, l (ix2 r k) * w (ix2 k c) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 r c) ((contrEquiv1 dot_S8000x128_S128x128_S8000x128_1_0_0_1_n_n 128 rfl rfl).symm k) = ix2 r k := funext fun a => Fin.ext (by
    match a with
    | ⟨0, _⟩ => exact lhs_row _ _
    | ⟨1, _⟩ => exact (lhs_lane _ _).trans hk)
  have er : dot_S8000x128_S128x128_S8000x128_1_0_0_1_n_n.rhsIdx (ix2 r c) ((contrEquiv1 dot_S8000x128_S128x128_S8000x128_1_0_0_1_n_n 128 rfl rfl).symm k) = ix2 k c := funext fun a => Fin.ext (by
    match a with
    | ⟨0, _⟩ => exact (rhs_row _ _).trans hk
    | ⟨1, _⟩ => exact rhs_col _ _)
  rw [el, er]

/-- The whole payload at row `r`, lane `c` of the block. -/
theorem payload_at (x : Vec Ideal S8000x128 .bf16) (A1 : Vec Ideal S128x128 .bf16) (c1 : Vec Ideal S1x128 .f32)
    (A2 : Vec Ideal S128x128 .bf16) (c2 : Vec Ideal S1x128 .f32) (r : Fin 8000) (c : Fin 128) :
    k0_pay1 (F := Ideal) x A1 c1 A2 c2 (ix2 r c)
      = Ideal.ofBits .f32 0x3F000000#32 * ((∑ k : Fin 128,
          max ((∑ j : Fin 128, x (ix2 r j) * A1 (ix2 j k)) + c1 (ix2 (0 : Fin 1) k)) (Ideal.ofBits .f32 0x00000000#32) * A2 (ix2 k c))
        + c2 (ix2 (0 : Fin 1) c)) := by
  unfold k0_pay1
  simp only [shapeCast_self]
  rw [mulf_apply, addf_apply, broadcast_apply, product_at, broadcastTo_1b_ab_apply]
  refine congrArg (fun s => Ideal.ofBits .f32 0x3F000000#32 * (s + c2 (ix2 (0 : Fin 1) c))) (Finset.sum_congr rfl fun k _ => ?_)
  rw [truncf_apply, maximumf_apply, addf_apply, broadcast_apply, product_at, broadcastTo_1b_ab_apply]
  rfl

end Cert.KernelIdeal.Hand

end
-- ==== Proof.Blocks.lean ====
/-
  From the blocks to the whole array.

  The grid has 50 points; point t stages rows 8000·t … 8000·t + 7999 of the packed input (window 0), the
  whole of each matrix and bias row (windows 1–4, block index (0, 0) at every point), and writes back rows
  8000·t … 8000·t + 7999 of the packed output (window 5).  So what point t writes back is block t of ONE
  function of the five input arrays, `packedOut`: at packed row e and lane c the packed computation of
  the specification on row e.  The 50 blocks tile the 400000 rows, so after the run the output array IS
  `packedOut` of the input arrays.
-/
import proofs.«148600_j83013127897105_2_alg».proof.Proof.Gen.KernelIdeal.Frame
import proofs.«148600_j83013127897105_2_alg».proof.Proof.Spec
import proofs.«148600_j83013127897105_2_alg».proof.Proof.Payload
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

/-- The packed result as one function of the five arrays the region reads: the specification's packed
    computation with the scale the word of one half and the rectifier's floor the zero word. -/
def packedOut (X : S400000x128.Idx → EReal) (A1 : S128x128.Idx → EReal) (c1 : S1x128.Idx → EReal)
    (A2 : S128x128.Idx → EReal) (c2 : S1x128.Idx → EReal) : S400000x128.Idx → EReal :=
  fun i => packedAt (Ideal.ofBits .f32 0x3F000000#32) (Ideal.ofBits .f32 0x00000000#32) X A1 c1 A2 c2 (i 0) (i 1)

theorem zero_offsets : (![0, 0] : Fin 2 → Nat) = fun _ => 0 := funext fun a => by fin_cases a <;> rfl

/-- The body's payload on a block of rows is the packed computation on those rows of the whole array:
    if the block `x` holds rows 8000·b … of `X`, then at row `r`, lane `c` of the block the payload is
    `packedOut` at any index `i` with row 8000·b + r and lane c. -/
theorem block_value (X : S400000x128.Idx → EReal) (A1 : S128x128.Idx → EReal) (c1 : S1x128.Idx → EReal)
    (A2 : S128x128.Idx → EReal) (c2 : S1x128.Idx → EReal) (x : Vec Ideal S8000x128 .bf16) (b : Nat)
    (hx : ∀ (r : Fin 8000) (j : Fin 128) (i : S400000x128.Idx), (i 0).val = b * 8000 + r.val → (i 1).val = j.val → x (ix2 r j) = X i)
    (r : Fin 8000) (c : Fin 128) (i : S400000x128.Idx) (hi0 : (i 0).val = b * 8000 + r.val) (hi1 : (i 1).val = c.val) :
    k0_pay1 (F := Ideal) x A1 c1 A2 c2 (ix2 r c) = packedOut X A1 c1 A2 c2 i := by
  obtain ⟨e, c', rfl⟩ : ∃ (e : Fin 400000) (c' : Fin 128), i = ix2 e c' := ⟨i 0, i 1, eq_ix2 i⟩
  obtain rfl : c' = c := Fin.ext hi1
  rw [payload_at]
  show _ = packedAt _ _ X A1 c1 A2 c2 e c'
  unfold packedAt
  refine congrArg (fun s => Ideal.ofBits .f32 0x3F000000#32 * (s + c2 (ix2 (0 : Fin 1) c'))) (Finset.sum_congr rfl fun k _ => ?_)
  refine congrArg (fun s => max (s + c1 (ix2 (0 : Fin 1) k)) (Ideal.ofBits .f32 0x00000000#32) * A2 (ix2 k c')) (Finset.sum_congr rfl fun j _ => ?_)
  rw [hx r j (ix2 e j) hi0 rfl]

/-- The printed index maps over the 50 grid points: the input rows move with the output rows, every other
    input stays at block (0, 0), and the output's row block is below 50. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) < 50 :=
  (by decide +kernel : ∀ t : Fin grid0.N, _)

/-- Every row block of the output is some point's. -/
theorem idx_onto : ∀ q : Fin 50, ∃ t : Fin cfg0.N, win0_5.index t = ![q.val, 0] :=
  (by decide +kernel : ∀ q : Fin 50, ∃ t : Fin grid0.N, win0_5.index t = ![q.val, 0])

/-! ## Blocks of arbitrary arrays (the arrays the region finds are substituted last) -/

/-- Point `t`'s block of a packed array `X`, at row `r` and lane `j`, is `X` at row (block index)·8000 + r. -/
theorem read_rows (t : Fin cfg0.N) (X : S400000x128.Idx → EReal) (r : Fin 8000) (j : Fin 128) (i : S400000x128.Idx)
    (hi0 : (i 0).val = win0_5.index t (0 : Fin 2) * 8000 + r.val) (hi1 : (i 1).val = j.val) :
    (((cfg0.win 0).blk t).view.read (Elt Ideal) X : Vec Ideal S8000x128 .bf16) (ix2 r j) = X i := by
  obtain ⟨e0, e1, -⟩ := idx_facts t
  rw [View.read_apply]
  show X _ = X i
  refine congrArg X (funext fun a => Fin.ext ?_)
  match a with
  | ⟨0, _⟩ => show win0_0.index t (0 : Fin 2) * 8000 + 1 * r.val = (i 0).val; rw [hi0, e0]; omega
  | ⟨1, _⟩ => show win0_0.index t (1 : Fin 2) * 128 + 1 * j.val = (i 1).val; rw [hi1, e1]; omega

/-- Point `t`'s block of a 128 × 128 array staged by window 1 is the whole array. -/
theorem read_mat1 (t : Fin cfg0.N) (X : S128x128.Idx → EReal) :
    (((cfg0.win 1).blk t).view.read (Elt Ideal) X : Vec Ideal S128x128 .bf16) = X := by
  obtain ⟨-, -, e0, e1, -⟩ := idx_facts t
  funext y
  rw [View.read_apply]
  show X _ = X y
  refine congrArg X (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- … by window 3 likewise. -/
theorem read_mat2 (t : Fin cfg0.N) (X : S128x128.Idx → EReal) :
    (((cfg0.win 3).blk t).view.read (Elt Ideal) X : Vec Ideal S128x128 .bf16) = X := by
  obtain ⟨-, -, -, -, -, -, e0, e1, -⟩ := idx_facts t
  funext y
  rw [View.read_apply]
  show X _ = X y
  refine congrArg X (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Point `t`'s block of a [1, 128] row staged by window 2 is the whole row. -/
theorem read_bias1 (t : Fin cfg0.N) (X : S1x128.Idx → EReal) :
    (((cfg0.win 2).blk t).view.read (Elt Ideal) X : Vec Ideal S1x128 .f32) = X := by
  obtain ⟨-, -, -, -, e0, e1, -⟩ := idx_facts t
  funext y
  rw [View.read_apply]
  show X _ = X y
  refine congrArg X (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- … by window 4 likewise. -/
theorem read_bias2 (t : Fin cfg0.N) (X : S1x128.Idx → EReal) :
    (((cfg0.win 4).blk t).view.read (Elt Ideal) X : Vec Ideal S1x128 .f32) = X := by
  obtain ⟨-, -, -, -, -, -, -, -, e0, e1, -⟩ := idx_facts t
  funext y
  rw [View.read_apply]
  show X _ = X y
  refine congrArg X (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What the body leaves in the output's buffer at point `t`, written back, is block `t` of `packedOut` — for
    ANY five arrays in the windows' places. -/
theorem flushed_gen (t : Fin cfg0.N) (X0 : S400000x128.Idx → EReal) (X1 : S128x128.Idx → EReal) (X2 : S1x128.Idx → EReal)
    (X3 : S128x128.Idx → EReal) (X4 : S1x128.Idx → EReal) :
    (cfg0.win 5).cut (grid0.coords t)
        (out0_5 (F := Ideal) (((cfg0.win 0).blk t).view.read (Elt Ideal) X0) (((cfg0.win 1).blk t).view.read (Elt Ideal) X1)
          (((cfg0.win 2).blk t).view.read (Elt Ideal) X2) (((cfg0.win 3).blk t).view.read (Elt Ideal) X3)
          (((cfg0.win 4).blk t).view.read (Elt Ideal) X4))
      = ((cfg0.win 5).blk t).view.read (Elt Ideal) (packedOut X0 X1 X2 X3 X4) := by
  unfold out0_5
  rw [View.canon_unit_zero zero_offsets]
  simp only [View.ld_unit_zero (S := S8000x128) zero_offsets, View.ld_unit_zero (S := S128x128) zero_offsets,
    View.ld_unit_zero (S := S1x128) zero_offsets]
  rw [read_mat1, read_bias1, read_mat2, read_bias2]
  obtain ⟨-, -, -, -, -, -, -, -, -, -, e51, -⟩ := idx_facts t
  funext y
  rw [View.read_apply]
  show k0_pay1 (F := Ideal) (((cfg0.win 0).blk t).view.read (Elt Ideal) X0) X1 X2 X3 X4 y
    = packedOut X0 X1 X2 X3 X4 (((cfg0.win 5).blk t).view.emb y)
  obtain ⟨r, cc, rfl⟩ : ∃ (r : Fin 8000) (cc : Fin 128), y = ix2 r cc := ⟨y 0, y 1, eq_ix2 y⟩
  refine block_value X0 X1 X2 X3 X4 (((cfg0.win 0).blk t).view.read (Elt Ideal) X0)
    (win0_5.index t (0 : Fin 2)) (fun r j i h0 h1 => read_rows t X0 r j i h0 h1) r cc
    (((cfg0.win 5).blk t).view.emb (ix2 r cc)) ?_ ?_
  · show win0_5.index t (0 : Fin 2) * 8000 + 1 * r.val = win0_5.index t (0 : Fin 2) * 8000 + r.val
    omega
  · show win0_5.index t (1 : Fin 2) * 128 + 1 * cc.val = cc.val
    rw [e51]; omega

variable (m : (ℓ : Loc nD τ sig) → Buf (Elt Ideal) ℓ)

/-! ## The arrays the region finds, substituted -/

/-- What point `t` writes back is block `t` of `packedOut` of the arrays as the region finds them. -/
theorem flushed_eq (c : Dev nD) (t : Fin cfg0.N) :
    (dats m 0 c).flushed 5 t = ((cfg0.win 5).blk t).view.read (Elt Ideal)
      (packedOut (V m c main_v19) (V m c main_v24) (V m c main_v31) (V m c main_v29) (V m c main_v33)) := by
  show (cfg0.win 5).cut (grid0.coords t) ((dats m 0 c).after 5 t) = _
  rw [after0_5]
  unfold iblk
  exact flushed_gen t (V m c main_v19) (V m c main_v24) (V m c main_v31) (V m c main_v29) (V m c main_v33)

/-- An index of the output array is in point `t`'s block iff each coordinate is in the block's range. -/
theorem mem_blk (t : Fin cfg0.N) (i : S400000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v34).slice (win0_5.rect t)).set ↔ _
  rw [View.set_slice_whole, Rect.mem_set_unit]
  exact Iff.rfl

/-- Every index of the output array is in some point's block: row e is in row block e / 8000. -/
theorem covered (i : S400000x128.Idx) :
    ∃ t : Fin cfg0.N, (cfg0.win 5).flush t = true ∧ i ∈ ((cfg0.win 5).blk t).view.set := by
  have hi0 : (i 0).val < 400000 := (i 0).isLt
  have hi1 : (i 1).val < 128 := (i 1).isLt
  obtain ⟨t, ht⟩ := idx_onto ⟨(i 0).val / 8000, by omega⟩
  have q0 : win0_5.index t (0 : Fin 2) = (i 0).val / 8000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 128 ≤ (i 1).val ∧ (i 1).val < win0_5.index t (1 : Fin 2) * 128 + 128; omega

/-- The output array after the run is `packedOut` of the arrays as the region finds them. -/
theorem final_packed (c : Dev nD) : (dats m 0 c).arrAt 5 cfg0.N
    = packedOut (V m c main_v19) (V m c main_v24) (V m c main_v31) (V m c main_v29) (V m c main_v33) :=
  (dats m 0 c).arrAt_eq_of_cover 5 _ (fun t _ => flushed_eq m c t) covered

end Cert.KernelIdeal.Hand

end
-- ==== Proof.KernelRun.lean ====
/-
  The kernel's program from launch to result.

  After the region the host reshapes the packed output [400000, 128] back to [800000, 64]: row e of the
  result is half e mod 2 of packed row e div 2.  With the output array at `packedOut` of the region's
  input arrays, those arrays at the packed input rows, the block-diagonal matrices and the doubled biases,
  and the specification's `packed_eq_mlp`, the result at row e, column c is the per-edge map there:
  `edgeOut`, ONE function of the seven arguments.
-/
import proofs.«148600_j83013127897105_2_alg».proof.Proof.Gen.KernelIdeal.Frame
import proofs.«148600_j83013127897105_2_alg».proof.Proof.Spec
import proofs.«148600_j83013127897105_2_alg».proof.Proof.HostIn
import proofs.«148600_j83013127897105_2_alg».proof.Proof.Blocks
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.EdgeMlp

/-- The result as one function of the seven arguments: the per-edge map of the per-edge input rows. -/
def edgeOut (x0 : (⟨S800000x64, .f32⟩ : BufTy).Contents (Elt Ideal)) (x1 x2 : (⟨S800000, .i32⟩ : BufTy).Contents (Elt Ideal))
    (x3 : S64x64.Idx → EReal) (x4 : S64.Idx → EReal) (x5 : S64x64.Idx → EReal) (x6 : S64.Idx → EReal) : S800000x64.Idx → EReal :=
  fun i => mlpAt (Ideal.ofBits .f32 0x3F000000#32) (Ideal.ofBits .f32 0x00000000#32) (edgeInput x0 x1 x2) x3 x4 x5 x6 (i 0) (i 1)

/-- Row e of the unpacked array is half e mod 2 of packed row e div 2: both sit at position 64·e + c. -/
theorem unpack_at (P : S400000x128.Idx → EReal) (e : Fin 800000) (c : Fin 64) :
    shapeCast S800000x64 P shapeCasts_S400000x128_S800000x64 (ix2 e c)
      = P (ix2 (⟨e.val / 2, by have := e.isLt; omega⟩ : Fin 400000) (lane (⟨e.val % 2, by omega⟩ : Fin 2) c)) := by
  refine shapeCast_apply P _ _ _ ?_
  rw [Shape.rowMajor_val_two, Shape.rowMajor_val_two]
  show e.val / 2 * 128 + (64 * (e.val % 2) + c.val) = e.val * 64 + c.val
  omega

/-- The packed computation on the packed input, unpacked, is the per-edge map. -/
theorem kernel_value (x0 : (⟨S800000x64, .f32⟩ : BufTy).Contents (Elt Ideal)) (x1 x2 : (⟨S800000, .i32⟩ : BufTy).Contents (Elt Ideal))
    (x3 : S64x64.Idx → EReal) (x4 : S64.Idx → EReal) (x5 : S64x64.Idx → EReal) (x6 : S64.Idx → EReal) :
    shapeCast S800000x64 (packedOut (packRows (edgeInput x0 x1 x2)) (blockDiag x3) (doubled x4) (blockDiag x5) (doubled x6))
        shapeCasts_S400000x128_S800000x64
      = edgeOut x0 x1 x2 x3 x4 x5 x6 := by
  funext i
  obtain ⟨e, c, rfl⟩ : ∃ (e : Fin 800000) (c : Fin 64), i = ix2 e c := ⟨i 0, i 1, eq_ix2 i⟩
  rw [unpack_at]
  show packedAt _ _ (packRows (edgeInput x0 x1 x2)) (blockDiag x3) (doubled x4) (blockDiag x5) (doubled x6)
      (⟨e.val / 2, by have := e.isLt; omega⟩ : Fin 400000) (lane (⟨e.val % 2, by omega⟩ : Fin 2) c)
    = mlpAt _ _ (edgeInput x0 x1 x2) x3 x4 x5 x6 e c
  rw [packed_eq_mlp _ _ (edgeInput x0 x1 x2) x3 x4 x5 x6 (packRows (edgeInput x0 x1 x2)) (blockDiag x3) (doubled x4) (blockDiag x5) (doubled x6)
    (packRows_at _) (blockDiag_diag x3) (blockDiag_off x3) (blockDiag_diag x5) (blockDiag_off x5) (doubled_at x4) (doubled_at x6)]
  refine congrArg (fun e' => mlpAt _ _ (edgeInput x0 x1 x2) x3 x4 x5 x6 e' c) (Fin.ext ?_)
  show 2 * (e.val / 2) + e.val % 2 = e.val
  omega

variable (m : (ℓ : Loc nD τ sig) → Buf (Elt Ideal) ℓ) (ρ : Dev nD → PrngReg)

/-- The output array after the run, in terms of the arguments. -/
theorem final_args (c : Dev nD) : (dats m 0 c).arrAt 5 cfg0.N
    = packedOut (packRows (edgeInput (m ((c.tc : Thread nD τ).loc main_arg0)) (m ((c.tc : Thread nD τ).loc main_arg1)) (m ((c.tc : Thread nD τ).loc main_arg2))))
        (blockDiag (m ((c.tc : Thread nD τ).loc main_arg3))) (doubled (m ((c.tc : Thread nD τ).loc main_arg4)))
        (blockDiag (m ((c.tc : Thread nD τ).loc main_arg5))) (doubled (m ((c.tc : Thread nD τ).loc main_arg6))) := by
  rw [final_packed, entry_rows, entry_mat1, entry_bias1, entry_mat2, entry_bias2]

/-- What the host's last line leaves in the result buffer. -/
theorem tail_value (c : Dev nD) :
    (Pipeline.afterTail₀ cfgs (dats m) 0 (V0 m) [hostOps1] c main_v35 : S800000x64.Idx → EReal)
      = edgeOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  unfold Pipeline.afterTail₀
  show StableHlo.after hostOps1 _ (Proc.devRef .tc main_v35) = _
  after_results
  have e : Pipeline.withArrays (cfgs 0).spec c (V0 m c) (fun w => (dats m 0 c).arrAt w (cfgs 0).N) (Proc.devRef .tc main_v34) = _ :=
    (Pipeline.withArrays_arr spec0 launch0.win.arr_inj c (V0 m c) (fun w => (dats m 0 c).arrAt w cfg0.N) 5).trans (final_args m c)
  rw [e]
  exact kernel_value _ _ _ _ _ _ _

/-- The run, read: the result buffer ends at `edgeOut` of the arguments, the arguments as launched. -/
theorem run : θ_run defs (onTc (τ := τ) (main (F := Ideal))) ⟨m, fun _ => 0, ρ⟩ fun r => ∀ c : Dev nD,
      r.2.mem ((c.tc : Thread nD τ).loc main_v35)
        = edgeOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v35 (Pipeline.mem_restRefs_of main_v35 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.RefIs.lean ====
/-
  The reference's result, read at one element.

  After the per-edge input rows x (computed by the same host operations as in the kernel's program, and
  never opened here) the reference is two contractions over 64 columns, each followed by a bias row
  broadcast down the 800000 rows, a maximum against the splat of the zero word between them, and the scale by
  the word of one half: at row e, column c it is the specification's per-edge map of x, W1, b1, W2, b2.
-/
import proofs.«148600_j83013127897105_2_alg».proof.Proof.Gen.ReferenceIdeal.Read
import proofs.«148600_j83013127897105_2_alg».proof.Proof.Spec
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx Cert.EdgeMlp

/-- The first contraction reads row e of its left operand and column c of its right operand. -/
theorem left18 (e : Fin 800000) (c k : Fin 64) : lidx_main_v18 (ix2 e c) k = ix2 e k :=
  funext fun a => Fin.ext (by match a with | ⟨0, _⟩ => rfl | ⟨1, _⟩ => rfl)
theorem right18 (e : Fin 800000) (c k : Fin 64) : ridx_main_v18 (ix2 e c) k = ix2 k c :=
  funext fun a => Fin.ext (by match a with | ⟨0, _⟩ => rfl | ⟨1, _⟩ => rfl)
/-- So does the second. -/
theorem left23 (e : Fin 800000) (c k : Fin 64) : lidx_main_v23 (ix2 e c) k = ix2 e k :=
  funext fun a => Fin.ext (by match a with | ⟨0, _⟩ => rfl | ⟨1, _⟩ => rfl)
theorem right23 (e : Fin 800000) (c k : Fin 64) : ridx_main_v23 (ix2 e c) k = ix2 k c :=
  funext fun a => Fin.ext (by match a with | ⟨0, _⟩ => rfl | ⟨1, _⟩ => rfl)
/-- A bias broadcast down the rows reads, at (e, c), the bias at c. -/
theorem bias20 (e : Fin 800000) (c : Fin 64) : idx_main_v19 (idx_main_v20 (ix2 e c)) = ix1 c :=
  funext fun a => Fin.ext (by match a with | ⟨0, _⟩ => rfl)
theorem bias25 (e : Fin 800000) (c : Fin 64) : idx_main_v24 (idx_main_v25 (ix2 e c)) = ix1 c :=
  funext fun a => Fin.ext (by match a with | ⟨0, _⟩ => rfl)

/-- The rectified first layer at row e, column k. -/
theorem hidden_at (x0 : (⟨S800000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal)) (e : Fin 800000) (k : Fin 64) :
    val_main_v22 (F := Ideal) x0 x1 x2 x3 x4 (ix2 e k)
      = max ((∑ j : Fin 64, val_main_v17 (F := Ideal) x0 x1 x2 (ix2 e j) * x3 (ix2 j k)) + x4 (ix1 k)) (Ideal.ofBits .f32 0x00000000#32) := by
  rw [val_main_v22_apply, val_main_v21_apply, val_main_v18_apply, val_main_v20_apply, val_main_v19_apply,
    val_main_call0_v0_apply, val_main_call0_cst_apply]
  simp only [left18, right18, bias20]
  rfl

/-- The reference's result at row e, column c is the per-edge map there. -/
theorem result_at (x0 : (⟨S800000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (e : Fin 800000) (c : Fin 64) :
    val_main_v28 (F := Ideal) x0 x1 x2 x3 x4 x5 x6 (ix2 e c)
      = mlpAt (Ideal.ofBits .f32 0x3F000000#32) (Ideal.ofBits .f32 0x00000000#32) (val_main_v17 (F := Ideal) x0 x1 x2) x3 x4 x5 x6 e c := by
  rw [val_main_v28_apply, val_main_v27_apply, val_main_cst_3_apply, val_main_v26_apply, val_main_v23_apply,
    val_main_v25_apply, val_main_v24_apply]
  simp only [left23, right23, bias25, hidden_at]
  rfl

end Cert.ReferenceIdeal.Hand

end
-- ==== Proof.lean ====
/-
  A message-passing layer on a graph with 800000 edges and 50000 nodes: every node sums the 64-number
  feature rows of its incoming edges, every edge adds the sums at its two endpoints, and a two-layer map
  y = ½ · (max(x · W1 + b1, 0) · W2 + b2) is applied to each edge's row x.

  The reference applies the two-layer map to the [800000, 64] array of rows.  The kernel's program
  computes the same rows by the same host operations, then lays two consecutive rows side by side in one
  row of 128 lanes, applies the map on packed rows against the block-diagonal matrices diag(W, W) and the
  doubled biases (b, b) — in 50 blocks of 8000 packed rows — and unpacks the result.  Over the extended
  reals the two are the same function of the seven arguments, element by element: rounding to a shorter
  float format is the identity; a product into a zero accumulator is the plain sum of products; and in a
  contraction with diag(W, W) the terms outside the diagonal block are products with the matrix's zero
  entries, which vanish for every extended real (so no finiteness of the inputs is used).

  Modules: Spec (the algebra, no program), Payload (the kernel body at one element), HostIn (the arrays the
  region finds, each at one element), Blocks (the 50 blocks are blocks of one function, and tile the
  output), KernelRun (the kernel's program from launch to result), RefIs (the reference at one element),
  and the claims below.
-/
import proofs.«148600_j83013127897105_2_alg».proof.Defs
import proofs.«148600_j83013127897105_2_alg».proof.Proof.Gen.Kernel
import proofs.«148600_j83013127897105_2_alg».proof.Proof.Gen.Kernel.Skeleton
import proofs.«148600_j83013127897105_2_alg».proof.Proof.Gen.Kernel.Launch
import proofs.«148600_j83013127897105_2_alg».proof.Proof.Gen.Kernel.Points
import proofs.«148600_j83013127897105_2_alg».proof.Proof.Gen.Kernel.Frame
import proofs.«148600_j83013127897105_2_alg».proof.Proof.Gen.KernelIdeal
import proofs.«148600_j83013127897105_2_alg».proof.Proof.Gen.KernelIdeal.Skeleton
import proofs.«148600_j83013127897105_2_alg».proof.Proof.Gen.KernelIdeal.Launch
import proofs.«148600_j83013127897105_2_alg».proof.Proof.Gen.KernelIdeal.Points
import proofs.«148600_j83013127897105_2_alg».proof.Proof.Gen.KernelIdeal.Frame
import proofs.«148600_j83013127897105_2_alg».proof.Proof.Gen.ReferenceIdeal
import proofs.«148600_j83013127897105_2_alg».proof.Proof.Gen.ReferenceIdeal.Run
import proofs.«148600_j83013127897105_2_alg».proof.Proof.Gen.ReferenceIdeal.Read
import proofs.«148600_j83013127897105_2_alg».proof.Proof.Gen.Pre_finite_inputs
import proofs.«148600_j83013127897105_2_alg».proof.Proof.KernelRun
import proofs.«148600_j83013127897105_2_alg».proof.Proof.RefIs
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program runs and leaves its arguments as launched (the generated frame). -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference's frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs compute the per-edge input rows by the same host operations. -/
theorem same_input (x0 : (⟨Cert.ReferenceIdeal.S800000x64, .f32⟩ : BufTy).Contents (Elt Ideal))
    (x1 x2 : (⟨Cert.ReferenceIdeal.S800000, .i32⟩ : BufTy).Contents (Elt Ideal)) :
    Cert.ReferenceIdeal.Read.val_main_v17 (F := Ideal) x0 x1 x2 = Cert.KernelIdeal.Hand.edgeInput x0 x1 x2 := rfl

/-- The reference's result is the kernel's function of the arguments. -/
theorem reference_value (x0 : (⟨Cert.ReferenceIdeal.S800000x64, .f32⟩ : BufTy).Contents (Elt Ideal))
    (x1 x2 : (⟨Cert.ReferenceIdeal.S800000, .i32⟩ : BufTy).Contents (Elt Ideal))
    (x3 : (⟨Cert.ReferenceIdeal.S64x64, .f32⟩ : BufTy).Contents (Elt Ideal)) (x4 : (⟨Cert.ReferenceIdeal.S64, .f32⟩ : BufTy).Contents (Elt Ideal))
    (x5 : (⟨Cert.ReferenceIdeal.S64x64, .f32⟩ : BufTy).Contents (Elt Ideal)) (x6 : (⟨Cert.ReferenceIdeal.S64, .f32⟩ : BufTy).Contents (Elt Ideal)) :
    Cert.ReferenceIdeal.Read.val_main_v28 (F := Ideal) x0 x1 x2 x3 x4 x5 x6 = Cert.KernelIdeal.Hand.edgeOut x0 x1 x2 x3 x4 x5 x6 := by
  funext i
  obtain ⟨e, c, rfl⟩ : ∃ (e : Fin 800000) (c : Fin 64), i = ix2 e c := ⟨i 0, i 1, eq_ix2 i⟩
  rw [Cert.ReferenceIdeal.Hand.result_at, same_input]
  rfl

/-- At the ideal values both programs end with the per-edge map of the per-edge input rows in their result
    buffers, from memories that agree on the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, reference_value, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
